-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S10x128 : Shape := ⟨2, ![10, 128]⟩
abbrev S10 : Shape := ⟨1, ![10]⟩
abbrev S8x10 : Shape := ⟨2, ![8, 10]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S8x10 : S_.BroadcastsInDim S8x10 (![] : Fin 0 → Fin S8x10.rank)
  reducesTo_S8x10_S_d0_1 : S8x10.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8 .f32) (main_arg5 : FVec F S1x8 .f32) (main_arg6 : FVec F S1 .f32) (main_v13 : IVec S_ 1) (main_v16 : IVec S8x10 1) : IVec S_ 1 :=
  let main_c_5 : IVec S_ 1 := constantI S_ 1 1#1
  let main_v17 : IVec S_ 1 := (fun x v => Host.reduce IntOp.andi x v reducesTo_S8x10_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1x8 .f32 := Host.absf main_arg5
  let main_cst_8 : FVec F S_ .f32 := constant S_ .f32 0x7F800000#32
  let main_v25 : FVec F S1x8 .f32 := broadcastInDim S1x8 ![] bcast_S_S1x8 main_cst_8
  let main_v26 : IVec S1x8 1 := cmpf .olt main_v24 main_v25
  let main_c_9 : IVec S_ 1 := constantI S_ 1 1#1
  let main_v27 : IVec S_ 1 := (fun x v => Host.reduce IntOp.andi x v reducesTo_S1x8_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1048576x128 .f32) (main_arg1 : FVec F S10x128 .f32) (main_arg2 : FVec F S10 .f32) (main_arg3 : FVec F S8x10 .f32) (main_arg4 : FVec F S8 .f32) (main_arg5 : FVec F S1x8 .f32) (main_arg6 : FVec F S1 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S8x10 .f32 := Host.absf main_arg3
  let main_cst_4 : FVec F S_ .f32 := constant S_ .f32 0x7F800000#32
  let main_v15 : FVec F S8x10 .f32 := broadcastInDim S8x10 ![] bcast_S_S8x10 main_cst_4
  let main_v16 : IVec S8x10 1 := cmpf .olt main_v14 main_v15
  fn_part1 (F := F) main_arg4 main_arg5 main_arg6 main_v13 main_v16
-- ==== Kernel.lean ====
abbrev S1048576x128 : Shape := ⟨2, ![1048576, 128]⟩
abbrev S10x128 : Shape := ⟨2, ![10, 128]⟩
abbrev S10 : Shape := ⟨1, ![10]⟩
abbrev S8x10 : Shape := ⟨2, ![8, 10]⟩
abbrev S8 : Shape := ⟨1, ![8]⟩
abbrev S1x8 : Shape := ⟨2, ![1, 8]⟩
abbrev S1 : Shape := ⟨1, ![1]⟩
abbrev S128x10 : Shape := ⟨2, ![128, 10]⟩
abbrev S10x8 : Shape := ⟨2, ![10, 8]⟩
abbrev S8x1 : Shape := ⟨2, ![8, 1]⟩
abbrev S1x10 : Shape := ⟨2, ![1, 10]⟩
abbrev S1x1 : Shape := ⟨2, ![1, 1]⟩
abbrev S8192x128 : Shape := ⟨2, ![8192, 128]⟩
abbrev S16384x128 : Shape := ⟨2, ![16384, 128]⟩
abbrev S128x128 : Shape := ⟨2, ![128, 128]⟩
abbrev S16384x10 : Shape := ⟨2, ![16384, 10]⟩
abbrev S16384x8 : Shape := ⟨2, ![16384, 8]⟩
abbrev S16384x1 : Shape := ⟨2, ![16384, 1]⟩
abbrev S128x128x1 : Shape := ⟨3, ![128, 128, 1]⟩
abbrev S1048576x1 : Shape := ⟨2, ![1048576, 1]⟩

abbrev nBuf : Space → Nat
  | .hbm => 15
  | .vmem => 10
  | .smem => 0
  | _ => 0

abbrev bufTy : (tb : Table) → Fin (tcTables nBuf tb) → BufTy
  | .hbm, ⟨0, _⟩ => ⟨S1048576x128, .f32⟩
  | .hbm, ⟨1, _⟩ => ⟨S10x128, .f32⟩
  | .hbm, ⟨2, _⟩ => ⟨S10, .f32⟩
  | .hbm, ⟨3, _⟩ => ⟨S8x10, .f32⟩
  | .hbm, ⟨4, _⟩ => ⟨S8, .f32⟩
  | .hbm, ⟨5, _⟩ => ⟨S1x8, .f32⟩
  | .hbm, ⟨6, _⟩ => ⟨S1, .f32⟩
  | .hbm, ⟨7, _⟩ => ⟨S128x10, .f32⟩
  | .hbm, ⟨8, _⟩ => ⟨S10x8, .f32⟩
  | .hbm, ⟨9, _⟩ => ⟨S8x1, .f32⟩
  | .hbm, ⟨10, _⟩ => ⟨S1x10, .f32⟩
  | .hbm, ⟨11, _⟩ => ⟨S1x8, .f32⟩
  | .hbm, ⟨12, _⟩ => ⟨S1x1, .f32⟩
  | .hbm, ⟨13, _⟩ => ⟨S8192x128, .f32⟩
  | .hbm, ⟨14, _⟩ => ⟨S1048576x1, .f32⟩
  | .local _ .vmem, ⟨0, _⟩ => ⟨S16384x128, .f32⟩
  | .local _ .vmem, ⟨1, _⟩ => ⟨S16384x128, .f32⟩
  | .local _ .vmem, ⟨2, _⟩ => ⟨S128x10, .f32⟩
  | .local _ .vmem, ⟨3, _⟩ => ⟨S1x10, .f32⟩
  | .local _ .vmem, ⟨4, _⟩ => ⟨S10x8, .f32⟩
  | .local _ .vmem, ⟨5, _⟩ => ⟨S1x8, .f32⟩
  | .local _ .vmem, ⟨6, _⟩ => ⟨S8x1, .f32⟩
  | .local _ .vmem, ⟨7, _⟩ => ⟨S1x1, .f32⟩
  | .local _ .vmem, ⟨8, _⟩ => ⟨S128x128, .f32⟩
  | .local _ .vmem, ⟨9, _⟩ => ⟨S128x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S10x128_S128x10_1_0 : S10x128.Transposes [1, 0] S128x10
  transposes_S8x10_S10x8_1_0 : S8x10.Transposes [1, 0] S10x8
  transposes_S1x8_S8x1_1_0 : S1x8.Transposes [1, 0] S8x1
  shapeCasts_S10_S1x10 : S10.ShapeCasts S1x10
  shapeCasts_S8_S1x8 : S8.ShapeCasts S1x8
  shapeCasts_S1_S1x1 : S1.ShapeCasts S1x1
  inb_S16384x128_S16384x128_0_0 : ∀ a, (![0, 0] : Fin 2 → Nat) a + S16384x128.size a ≤ S16384x128.size a
  h_S16384x128 : 0 < S16384x128.numel
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16384x10 : S1x10.Broadcasts S16384x10
  inb_S10x8_S10x8_0_0 : ∀ a, (![0, 0] : Fin 2 → Nat) a + S10x8.size a ≤ S10x8.size a
  h_S10x8 : 0 < S10x8.numel
  shapeCasts_S10x8_S10x8 : S10x8.ShapeCasts S10x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16384x8 : S1x8.Broadcasts S16384x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  shapeCasts_S16384x1_S128x128x1 : S16384x1.ShapeCasts S128x128x1
  shapeCasts_S128x128x1_S128x128 : S128x128x1.ShapeCasts S128x128
  inb_S128x128_S128x128_0_0 : ∀ a, (![0, 0] : Fin 2 → Nat) a + S128x128.size a ≤ S128x128.size a
  h_S128x128 : 0 < S128x128.numel
  shapeCasts_S8192x128_S1048576x1 : S8192x128.ShapeCasts S1048576x1
  dot_S16384x128_S128x10_S16384x10_1_0_0_1_n_n_wf : DotDims.WF S16384x128 S128x10 S16384x10 [1] [0] [0] [1] [] []
  dot_S16384x10_S10x8_S16384x8_1_0_0_1_n_n_wf : DotDims.WF S16384x10 S10x8 S16384x8 [1] [0] [0] [1] [] []
  dot_S16384x8_S8x1_S16384x1_1_0_0_1_n_n_wf : DotDims.WF S16384x8 S8x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x8.size a ≤ S10x8.size a
  hwx0_3 : ∀ i : grid0.Coords, EltTy.bits .f32 = 32 ∨ (Rect.block (s := S10x8) S10x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S8192x128.size a
  hwx0_7 : ∀ i : grid0.Coords, EltTy.bits .f32 = 32 ∨ (Rect.block (s := S8192x128) S128x128.size (cc0_transform_7 i) (hinb0_7 i)).WholeWords (EltTy.packing .f32)

variable [Facts₀]

def dot_S16384x128_S128x10_S16384x10_1_0_0_1_n_n : DotDims S16384x128 S128x10 S16384x10 where
  lhsContracting := [1]
  rhsContracting := [0]
  lhsNonContracting := [0]
  rhsNonContracting := [1]
  lhsBatch := []
  rhsBatch := []
  wf := dot_S16384x128_S128x10_S16384x10_1_0_0_1_n_n_wf
def dot_S16384x10_S10x8_S16384x8_1_0_0_1_n_n : DotDims S16384x10 S10x8 S16384x8 where
  lhsContracting := [1]
  rhsContracting := [0]
  lhsNonContracting := [0]
  rhsNonContracting := [1]
  lhsBatch := []
  rhsBatch := []
  wf := dot_S16384x10_S10x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S10x128 : Shape := ⟨2, ![10, 128]⟩
abbrev S10 : Shape := ⟨1, ![10]⟩
abbrev S8x10 : Shape := ⟨2, ![8, 10]⟩
abbrev S8 : Shape := ⟨1, ![8]⟩
abbrev S1x8 : Shape := ⟨2, ![1, 8]⟩
abbrev S1 : Shape := ⟨1, ![1]⟩
abbrev S128x10 : Shape := ⟨2, ![128, 10]⟩
abbrev S1048576x10 : Shape := ⟨2, ![1048576, 10]⟩
abbrev S1x10 : Shape := ⟨2, ![1, 10]⟩
abbrev S_ : Shape := ⟨0, ![]⟩
abbrev S10x8 : Shape := ⟨2, ![10, 8]⟩
abbrev S1048576x8 : Shape := ⟨2, ![1048576, 8]⟩
abbrev S8x1 : Shape := ⟨2, ![8, 1]⟩
abbrev S1048576x1 : Shape := ⟨2, ![1048576, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S10x128, .f32⟩
  | .hbm, ⟨2, _⟩ => ⟨S10, .f32⟩
  | .hbm, ⟨3, _⟩ => ⟨S8x10, .f32⟩
  | .hbm, ⟨4, _⟩ => ⟨S8, .f32⟩
  | .hbm, ⟨5, _⟩ => ⟨S1x8, .f32⟩
  | .hbm, ⟨6, _⟩ => ⟨S1, .f32⟩
  | .hbm, ⟨7, _⟩ => ⟨S128x10, .f32⟩
  | .hbm, ⟨8, _⟩ => ⟨S1048576x10, .f32⟩
  | .hbm, ⟨9, _⟩ => ⟨S1x10, .f32⟩
  | .hbm, ⟨10, _⟩ => ⟨S1048576x10, .f32⟩
  | .hbm, ⟨11, _⟩ => ⟨S1048576x10, .f32⟩
  | .hbm, ⟨12, _⟩ => ⟨S_, .f32⟩
  | .hbm, ⟨13, _⟩ => ⟨S1048576x10, .f32⟩
  | .hbm, ⟨14, _⟩ => ⟨S1048576x10, .f32⟩
  | .hbm, ⟨15, _⟩ => ⟨S10x8, .f32⟩
  | .hbm, ⟨16, _⟩ => ⟨S1048576x8, .f32⟩
  | .hbm, ⟨17, _⟩ => ⟨S1x8, .f32⟩
  | .hbm, ⟨18, _⟩ => ⟨S1048576x8, .f32⟩
  | .hbm, ⟨19, _⟩ => ⟨S1048576x8, .f32⟩
  | .hbm, ⟨20, _⟩ => ⟨S_, .f32⟩
  | .hbm, ⟨21, _⟩ => ⟨S1048576x8, .f32⟩
  | .hbm, ⟨22, _⟩ => ⟨S1048576x8, .f32⟩
  | .hbm, ⟨23, _⟩ => ⟨S8x1, .f32⟩
  | .hbm, ⟨24, _⟩ => ⟨S1048576x1, .f32⟩
  | .hbm, ⟨25, _⟩ => ⟨S1x1, .f32⟩
  | .hbm, ⟨26, _⟩ => ⟨S1048576x1, .f32⟩
  | .hbm, ⟨27, _⟩ => ⟨S1048576x1, .f32⟩
  | .hbm, ⟨28, _⟩ => ⟨S1048576x1, .f32⟩
  | .hbm, ⟨29, _⟩ => ⟨S1048576x1, .f32⟩
  | .hbm, ⟨30, _⟩ => ⟨S_, .f32⟩
  | .hbm, ⟨31, _⟩ => ⟨S1048576x1, .f32⟩
  | .hbm, ⟨32, _⟩ => ⟨S1048576x1, .f32⟩
  | .hbm, ⟨33, _⟩ => ⟨S_, .f32⟩
  | .hbm, ⟨34, _⟩ => ⟨S1048576x1, .f32⟩
  | .hbm, ⟨35, _⟩ => ⟨S1048576x1, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S10x128_S128x10_1_0 : S10x128.Transposes [1, 0] S128x10
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  bcast_S_S1048576x10 : S_.BroadcastsInDim S1048576x10 (![] : Fin 0 → Fin S1048576x10.rank)
  transposes_S8x10_S10x8_1_0 : S8x10.Transposes [1, 0] S10x8
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  transposes_S1x8_S8x1_1_0 : S1x8.Transposes [1, 0] S8x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x128_S128x10_S1048576x10_1_0_0_1_n_n_wf : DotDims.WF S1048576x128 S128x10 S1048576x10 [1] [0] [0] [1] [] []
  dot_S1048576x10_S10x8_S1048576x8_1_0_0_1_n_n_wf : DotDims.WF S1048576x10 S10x8 S1048576x8 [1] [0] [0] [1] [] []
  dot_S1048576x8_S8x1_S1048576x1_1_0_0_1_n_n_wf : DotDims.WF S1048576x8 S8x1 S1048576x1 [1] [0] [0] [1] [] []

variable [Facts₀]

def dot_S1048576x128_S128x10_S1048576x10_1_0_0_1_n_n : DotDims S1048576x128 S128x10 S1048576x10 where
  lhsContracting := [1]
  rhsContracting := [0]
  lhsNonContracting := [0]
  rhsNonContracting := [1]
  lhsBatch := []
  rhsBatch := []
  wf := dot_S1048576x128_S128x10_S1048576x10_1_0_0_1_n_n_wf
def dot_S1048576x10_S10x8_S1048576x8_1_0_0_1_n_n : DotDims S1048576x10 S10x8 S1048576x8 where
  lhsContracting := [1]
  rhsContracting := [0]
  lhsNonContracting := [0]
  rhsNonContracting := [1]
  lhsBatch := []
  rhsBatch := []
  wf := dot_S1048576x10_S10x8_S1048576x8_1_0_0_1_n_n_wf
def dot_S1048576x8_S8x1_S1048576x1_1_0_0_1_n_n : DotDims S1048576x8 S8x1 S1048576x1 where
  lhsContracting := [1]
  rhsContracting := [0]
  lhsNonContracting := [0]
  rhsNonContracting := [1]
  lhsBatch := []
  rhsBatch := []
  wf := dot_S1048576x8_S8x1_S1048576x1_1_0_0_1_n_n_wf

class Facts : Prop extends Facts₀ where

variable [Facts]
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Spec.lean ====
/-
  The network both programs compute, as a function on the extended reals.

  One input row `row : Fin 128 → EReal` goes through three affine layers: the first two followed by a maximum with
  zero, the last by the logistic function `1 / (1 + e⁻ˣ)`. The weights are taken as coordinate functions in the
  orientation in which a layer uses them (`w k j`: input position `k`, output position `j`), so a layer's entry is
  `(∑ k, h k * w k j) + b j`. The zero the maximum is taken against is kept as the float word both programs print.

  `outRow` reads the network off the seven argument arrays: row `r` of `X` as the input, each weight matrix
  transposed (`W1 (j, k)` is the weight from input position `k` to output position `j`), each bias vector as it is;
  `result` is the column of these outputs over the whole batch.
-/
import Idealize.ShloMosaic.PureOps.Ideal
import Idealize.ShloMosaic.Lib.ValueIdx

noncomputable section

open scoped BigOperators

namespace Cert.Mlp

open Idealize.ShloMosaic Idealize.ShloMosaic.ValueIdx

/-- The float zero both programs take their maxima against. -/
abbrev zeroWord : EReal := Ideal.ofBits .f32 0x00000000#32

/-- First layer: 128 inputs to 10 outputs, then the maximum with zero. -/
def layer1 (row : Fin 128 → EReal) (w1 : Fin 128 → Fin 10 → EReal) (b1 : Fin 10 → EReal) (j : Fin 10) : EReal :=
  max ((∑ k : Fin 128, row k * w1 k j) + b1 j) zeroWord

/-- Second layer: 10 inputs to 8 outputs, then the maximum with zero. -/
def layer2 (h : Fin 10 → EReal) (w2 : Fin 10 → Fin 8 → EReal) (b2 : Fin 8 → EReal) (j : Fin 8) : EReal :=
  max ((∑ k : Fin 10, h k * w2 k j) + b2 j) zeroWord

/-- Third layer: 8 inputs to one output, then the logistic function. -/
def layer3 (h : Fin 8 → EReal) (w3 : Fin 8 → EReal) (b3 : EReal) : EReal :=
  Ideal.logistic ((∑ k : Fin 8, h k * w3 k) + b3)

/-- The three layers composed. -/
def net (row : Fin 128 → EReal) (w1 : Fin 128 → Fin 10 → EReal) (b1 : Fin 10 → EReal)
    (w2 : Fin 10 → Fin 8 → EReal) (b2 : Fin 8 → EReal) (w3 : Fin 8 → EReal) (b3 : EReal) : EReal :=
  layer3 (layer2 (layer1 row w1 b1) w2 b2) w3 b3

/-- The network depends on its data entry by entry. -/
theorem net_congr {row row' : Fin 128 → EReal} {w1 w1' : Fin 128 → Fin 10 → EReal} {b1 b1' : Fin 10 → EReal}
    {w2 w2' : Fin 10 → Fin 8 → EReal} {b2 b2' : Fin 8 → EReal} {w3 w3' : Fin 8 → EReal} {b3 b3' : EReal}
    (h0 : ∀ k, row k = row' k) (h1 : ∀ k j, w1 k j = w1' k j) (h2 : ∀ j, b1 j = b1' j)
    (h3 : ∀ k j, w2 k j = w2' k j) (h4 : ∀ j, b2 j = b2' j) (h5 : ∀ k, w3 k = w3' k) (h6 : b3 = b3') :
    net row w1 b1 w2 b2 w3 b3 = net row' w1' b1' w2' b2' w3' b3' := by
  obtain rfl : row = row' := funext h0
  obtain rfl : w1 = w1' := funext fun k => funext (h1 k)
  obtain rfl : b1 = b1' := funext h2
  obtain rfl : w2 = w2' := funext fun k => funext (h3 k)
  obtain rfl : b2 = b2' := funext h4
  obtain rfl : w3 = w3' := funext h5
  subst h6
  rfl

/-- The network's output for row `r` of the batch, from the seven argument arrays. -/
def outRow (X : (⟨2, ![1048576, 128]⟩ : Shape).Idx → EReal) (W1 : (⟨2, ![10, 128]⟩ : Shape).Idx → EReal)
    (b1 : (⟨1, ![10]⟩ : Shape).Idx → EReal) (W2 : (⟨2, ![8, 10]⟩ : Shape).Idx → EReal)
    (b2 : (⟨1, ![8]⟩ : Shape).Idx → EReal) (W3 : (⟨2, ![1, 8]⟩ : Shape).Idx → EReal)
    (b3 : (⟨1, ![1]⟩ : Shape).Idx → EReal) (r : Fin 1048576) : EReal :=
  net (fun k => X (ix2 r k)) (fun k j => W1 (ix2 j k)) (fun j => b1 (ix1 j)) (fun k j => W2 (ix2 j k))
    (fun j => b2 (ix1 j)) (fun k => W3 (ix2 (0 : Fin 1) k)) (b3 (ix1 (0 : Fin 1)))

/-- The whole result: a [1048576, 1] column whose entry `(r, 0)` is the network's output for row `r`. -/
def result (X : (⟨2, ![1048576, 128]⟩ : Shape).Idx → EReal) (W1 : (⟨2, ![10, 128]⟩ : Shape).Idx → EReal)
    (b1 : (⟨1, ![10]⟩ : Shape).Idx → EReal) (W2 : (⟨2, ![8, 10]⟩ : Shape).Idx → EReal)
    (b2 : (⟨1, ![8]⟩ : Shape).Idx → EReal) (W3 : (⟨2, ![1, 8]⟩ : Shape).Idx → EReal)
    (b3 : (⟨1, ![1]⟩ : Shape).Idx → EReal) : (⟨2, ![1048576, 1]⟩ : Shape).Idx → EReal :=
  fun i => outRow X W1 b1 W2 b2 W3 b3 ⟨(i 0).val, (i 0).isLt⟩

theorem result_apply (X : (⟨2, ![1048576, 128]⟩ : Shape).Idx → EReal) (W1 : (⟨2, ![10, 128]⟩ : Shape).Idx → EReal)
    (b1 : (⟨1, ![10]⟩ : Shape).Idx → EReal) (W2 : (⟨2, ![8, 10]⟩ : Shape).Idx → EReal)
    (b2 : (⟨1, ![8]⟩ : Shape).Idx → EReal) (W3 : (⟨2, ![1, 8]⟩ : Shape).Idx → EReal)
    (b3 : (⟨1, ![1]⟩ : Shape).Idx → EReal) (r : Fin 1048576) (u : Fin 1) :
    result X W1 b1 W2 b2 W3 b3 (ix2 r u) = outRow X W1 b1 W2 b2 W3 b3 r := rfl

end Cert.Mlp

end
-- ==== Proof.Payload.lean ====
/-
  The value the kernel body stores, read at one entry of the [128, 128] output block.

  The body loads a [16384, 128] block of rows and the six small weight arrays, runs the three layers on all 16384
  rows at once (three matrix products into zero accumulators, the biases broadcast along the rows, two maxima with
  zero, the logistic function) and lays the resulting [16384, 1] column out as a [128, 128] slab in row-major order:
  entry (p, q) of the slab is the column's entry 128·p + q. So entry (p, q) of what is stored is the network of
  `Cert.Mlp.net` applied to row 128·p + q of the loaded block.
-/
import proofs.«106748_j44272522887405_2_alg».proof.Proof.Gen.KernelIdeal.Skeleton
import proofs.«106748_j44272522887405_2_alg».proof.Proof.LibMatmulAt
import proofs.«106748_j44272522887405_2_alg».proof.Proof.Spec
import Idealize.ShloMosaic.Lib.ValueLayout
import Idealize.ShloMosaic.Lib.Pipeline.Value

noncomputable section

open scoped BigOperators

namespace Cert.KernelIdeal.Hand

open Cert.KernelIdeal Idealize.ShloMosaic Idealize.ShloMosaic.ValueIdx Idealize.ShloMosaic.MatmulAt
open Cert.Mlp
open Facts₀

variable [Facts]

/-! ## Where the three matrix products read their operands -/

abbrev dot1 := dot_S16384x128_S128x10_S16384x10_1_0_0_1_n_n
abbrev dot2 := dot_S16384x10_S10x8_S16384x8_1_0_0_1_n_n
abbrev dot3 := dot_S16384x8_S8x1_S16384x1_1_0_0_1_n_n

theorem dot1_l0 (i : S16384x10.Idx) (q : dot1.contr.Idx) : (dot1.lhsIdx i q (0 : Fin 2)).val = (i (0 : Fin 2)).val := by
  unfold DotDims.lhsIdx
  rw [dif_neg (show ¬(0 : Fin S16384x128.rank) ∈ dot1.lhsBatch by decide), dif_pos (show (0 : Fin S16384x128.rank) ∈ dot1.lhsNonContracting by decide)]
  rfl
theorem dot1_l1 (i : S16384x10.Idx) (q : dot1.contr.Idx) : (dot1.lhsIdx i q (1 : Fin 2)).val = (q ⟨0, by decide⟩).val :=
  dot1.lhsIdx_val_of_single rfl i q
theorem dot1_r0 (i : S16384x10.Idx) (q : dot1.contr.Idx) : (dot1.rhsIdx i q (0 : Fin 2)).val = (q ⟨0, by decide⟩).val :=
  dot1.rhsIdx_val_of_single rfl i q
theorem dot1_r1 (i : S16384x10.Idx) (q : dot1.contr.Idx) : (dot1.rhsIdx i q (1 : Fin 2)).val = (i (1 : Fin 2)).val := by
  unfold DotDims.rhsIdx
  rw [dif_neg (show ¬(1 : Fin S128x10.rank) ∈ dot1.rhsBatch by decide), dif_pos (show (1 : Fin S128x10.rank) ∈ dot1.rhsNonContracting by decide)]
  rfl

theorem dot2_l0 (i : S16384x8.Idx) (q : dot2.contr.Idx) : (dot2.lhsIdx i q (0 : Fin 2)).val = (i (0 : Fin 2)).val := by
  unfold DotDims.lhsIdx
  rw [dif_neg (show ¬(0 : Fin S16384x10.rank) ∈ dot2.lhsBatch by decide), dif_pos (show (0 : Fin S16384x10.rank) ∈ dot2.lhsNonContracting by decide)]
  rfl
theorem dot2_l1 (i : S16384x8.Idx) (q : dot2.contr.Idx) : (dot2.lhsIdx i q (1 : Fin 2)).val = (q ⟨0, by decide⟩).val :=
  dot2.lhsIdx_val_of_single rfl i q
theorem dot2_r0 (i : S16384x8.Idx) (q : dot2.contr.Idx) : (dot2.rhsIdx i q (0 : Fin 2)).val = (q ⟨0, by decide⟩).val :=
  dot2.rhsIdx_val_of_single rfl i q
theorem dot2_r1 (i : S16384x8.Idx) (q : dot2.contr.Idx) : (dot2.rhsIdx i q (1 : Fin 2)).val = (i (1 : Fin 2)).val := by
  unfold DotDims.rhsIdx
  rw [dif_neg (show ¬(1 : Fin S10x8.rank) ∈ dot2.rhsBatch by decide), dif_pos (show (1 : Fin S10x8.rank) ∈ dot2.rhsNonContracting by decide)]
  rfl

theorem dot3_l0 (i : S16384x1.Idx) (q : dot3.contr.Idx) : (dot3.lhsIdx i q (0 : Fin 2)).val = (i (0 : Fin 2)).val := by
  unfold DotDims.lhsIdx
  rw [dif_neg (show ¬(0 : Fin S16384x8.rank) ∈ dot3.lhsBatch by decide), dif_pos (show (0 : Fin S16384x8.rank) ∈ dot3.lhsNonContracting by decide)]
  rfl
theorem dot3_l1 (i : S16384x1.Idx) (q : dot3.contr.Idx) : (dot3.lhsIdx i q (1 : Fin 2)).val = (q ⟨0, by decide⟩).val :=
  dot3.lhsIdx_val_of_single rfl i q
theorem dot3_r0 (i : S16384x1.Idx) (q : dot3.contr.Idx) : (dot3.rhsIdx i q (0 : Fin 2)).val = (q ⟨0, by decide⟩).val :=
  dot3.rhsIdx_val_of_single rfl i q
theorem dot3_r1 (i : S16384x1.Idx) (q : dot3.contr.Idx) : (dot3.rhsIdx i q (1 : Fin 2)).val = (i (1 : Fin 2)).val := by
  unfold DotDims.rhsIdx
  rw [dif_neg (show ¬(1 : Fin S8x1.rank) ∈ dot3.rhsBatch by decide), dif_pos (show (1 : Fin S8x1.rank) ∈ dot3.rhsNonContracting by decide)]
  rfl

/-! ## The body's three stages, as the body spells them -/

/-- The first hidden layer on all rows of the block. -/
def hid1 (v0 : FVec Ideal S16384x128 .f32) (v1 : FVec Ideal S128x10 .f32) (v4 : FVec Ideal S1x10 .f32) : FVec Ideal S16384x10 .f32 :=
  maximumf (addf (matmul dot1 none v0 (shapeCast S128x10 v1 shapeCasts_S128x10_S128x10) (constant S16384x10 .f32 0x00000000#32))
      (broadcastTo S16384x10 (shapeCast S1x10 v4 shapeCasts_S1x10_S1x10) broadcasts_S1x10_S16384x10))
    (broadcast S16384x10 (Scalar.ofBits .f32 0x00000000#32))

/-- The second hidden layer on all rows. -/
def hid2 (h : FVec Ideal S16384x10 .f32) (v10 : FVec Ideal S10x8 .f32) (v13 : FVec Ideal S1x8 .f32) : FVec Ideal S16384x8 .f32 :=
  maximumf (addf (matmul dot2 none h (shapeCast S10x8 v10 shapeCasts_S10x8_S10x8) (constant S16384x8 .f32 0x00000000#32))
      (broadcastTo S16384x8 (shapeCast S1x8 v13 shapeCasts_S1x8_S1x8) broadcasts_S1x8_S16384x8))
    (broadcast S16384x8 (Scalar.ofBits .f32 0x00000000#32))

/-- The output layer on all rows: a [16384, 1] column. -/
def outCol (h : FVec Ideal S16384x8 .f32) (v19 : FVec Ideal S8x1 .f32) (v22 : FVec Ideal S1x1 .f32) : FVec Ideal S16384x1 .f32 :=
  logistic (addf (matmul dot3 none h (shapeCast S8x1 v19 shapeCasts_S8x1_S8x1) (constant S16384x1 .f32 0x00000000#32))
      (broadcastTo S16384x1 (shapeCast S1x1 v22 shapeCasts_S1x1_S1x1) broadcasts_S1x1_S16384x1))

/-- What the body stores is the output column laid out as a [128, 128] slab. -/
theorem pay_eq (v0 : FVec Ideal S16384x128 .f32) (v1 : FVec Ideal S128x10 .f32) (v4 : FVec Ideal S1x10 .f32) (v10 : FVec Ideal S10x8 .f32)
    (v13 : FVec Ideal S1x8 .f32) (v19 : FVec Ideal S8x1 .f32) (v22 : FVec Ideal S1x1 .f32) :
    Gen.k0_pay1 (F := Ideal) v0 v1 v4 v10 v13 v19 v22
      = shapeCast S128x128 (shapeCast S128x128x1 (outCol (hid2 (hid1 v0 v1 v4) v10 v13) v19 v22) shapeCasts_S16384x1_S128x128x1)
          shapeCasts_S128x128x1_S128x128 := rfl

/-! ## Each stage at an entry -/

theorem hid1_apply (v0 : FVec Ideal S16384x128 .f32) (v1 : FVec Ideal S128x10 .f32) (v4 : FVec Ideal S1x10 .f32) (ρ : Fin 16384) (j : Fin 10) :
    hid1 v0 v1 v4 (ix2 ρ j) = layer1 (fun k => v0 (ix2 ρ k)) (fun k j => v1 (ix2 k j)) (fun j => v4 (ix2 (0 : Fin 1) j)) j := by
  unfold hid1 layer1
  rw [maximumf_apply, addf_apply, broadcast_apply, shapeCast_self, shapeCast_self,
    matmul_zero_ix2 dot1 rfl rfl dot1_l0 dot1_l1 dot1_r0 dot1_r1, broadcastTo_1b_ab_apply]
  rfl

theorem hid2_apply (h : FVec Ideal S16384x10 .f32) (v10 : FVec Ideal S10x8 .f32) (v13 : FVec Ideal S1x8 .f32) (ρ : Fin 16384) (j : Fin 8) :
    hid2 h v10 v13 (ix2 ρ j) = layer2 (fun k => h (ix2 ρ k)) (fun k j => v10 (ix2 k j)) (fun j => v13 (ix2 (0 : Fin 1) j)) j := by
  unfold hid2 layer2
  rw [maximumf_apply, addf_apply, broadcast_apply, shapeCast_self, shapeCast_self,
    matmul_zero_ix2 dot2 rfl rfl dot2_l0 dot2_l1 dot2_r0 dot2_r1, broadcastTo_1b_ab_apply]
  rfl

theorem outCol_apply (h : FVec Ideal S16384x8 .f32) (v19 : FVec Ideal S8x1 .f32) (v22 : FVec Ideal S1x1 .f32) (ρ : Fin 16384) :
    outCol h v19 v22 (ix2 ρ (0 : Fin 1)) = layer3 (fun k => h (ix2 ρ k)) (fun k => v19 (ix2 k (0 : Fin 1))) (v22 (ix2 (0 : Fin 1) (0 : Fin 1))) := by
  unfold outCol layer3
  show Ideal.logistic ((addf (F := Ideal) _ _ : FVec Ideal S16384x1 .f32) (ix2 ρ (0 : Fin 1))) = _
  rw [addf_apply, shapeCast_self, shapeCast_self,
    matmul_zero_ix2 dot3 rfl rfl dot3_l0 dot3_l1 dot3_r0 dot3_r1, broadcastTo_1b_ab_apply]

/-- A [16384, 1] column laid out as a [128, 128] slab: entry (p, q) is the column's entry 128·p + q. -/
theorem slab_apply {α : Type} (v : S16384x1.Idx → α) (p q : Fin 128) :
    shapeCast S128x128 (shapeCast S128x128x1 v shapeCasts_S16384x1_S128x128x1) shapeCasts_S128x128x1_S128x128 (ix2 p q)
      = v (ix2 (⟨128 * p.val + q.val, by omega⟩ : Fin 16384) (0 : Fin 1)) :=
  (shapeCast_apply _ shapeCasts_S128x128x1_S128x128 (ix2 p q) (ix3 p q (0 : Fin 1)) (by
    rw [Shape.rowMajor_val_three, Shape.rowMajor_val_two]
    show (p.val * 128 + q.val) * 1 + 0 = p.val * 128 + q.val
    omega)).trans
  (shapeCast_apply v shapeCasts_S16384x1_S128x128x1 (ix3 p q (0 : Fin 1)) (ix2 (⟨128 * p.val + q.val, by omega⟩ : Fin 16384) (0 : Fin 1)) (by
    rw [Shape.rowMajor_val_three, Shape.rowMajor_val_two]
    show (128 * p.val + q.val) * 1 + 0 = (p.val * 128 + q.val) * 1 + 0
    omega))

/-! ## The stored value at an entry -/

/-- Entry (p, q) of what the body stores is the network on row 128·p + q of the loaded block. -/
theorem pay_apply (v0 : FVec Ideal S16384x128 .f32) (v1 : FVec Ideal S128x10 .f32) (v4 : FVec Ideal S1x10 .f32) (v10 : FVec Ideal S10x8 .f32)
    (v13 : FVec Ideal S1x8 .f32) (v19 : FVec Ideal S8x1 .f32) (v22 : FVec Ideal S1x1 .f32) (p q : Fin 128) :
    Gen.k0_pay1 (F := Ideal) v0 v1 v4 v10 v13 v19 v22 (ix2 p q)
      = net (fun k => v0 (ix2 (⟨128 * p.val + q.val, by omega⟩ : Fin 16384) k)) (fun k j => v1 (ix2 k j)) (fun j => v4 (ix2 (0 : Fin 1) j))
          (fun k j => v10 (ix2 k j)) (fun j => v13 (ix2 (0 : Fin 1) j)) (fun k => v19 (ix2 k (0 : Fin 1))) (v22 (ix2 (0 : Fin 1) (0 : Fin 1))) := by
  rw [pay_eq, slab_apply, outCol_apply]
  unfold net
  refine congrArg (fun h => layer3 h _ _) (funext fun k => ?_)
  rw [hid2_apply]
  refine congrArg (fun h => layer2 h _ _ k) (funext fun k' => ?_)
  exact hid1_apply v0 v1 v4 _ k'

end Cert.KernelIdeal.Hand

end
-- ==== Proof.KernelValue.lean ====
/-
  The kernel's result, read off its run.

  The program transposes the three weight matrices and views the three bias vectors as one-row matrices, launches the
  kernel over 64 grid points, and views the kernel's [8192, 128] result as a [1048576, 1] column. At point `t` the
  kernel is given rows 16384·t … 16384·t + 16383 of the batch and the six small arrays whole, and writes rows
  128·t … 128·t + 127 of the result. By `pay_apply` entry (p, q) of what it writes is the network on row 128·p + q
  of its block of rows, that is on row 16384·t + 128·p + q of the batch; so the result array is the function
  `slab`: entry (a, b) is the network's output for row 128·a + b. The 64 blocks of 128 rows tile the array, hence
  after the run the array is `slab`; and a [8192, 128] array viewed as a [1048576, 1] column has at (r, 0) the entry
  (r / 128, r % 128): the network's output for row r.
-/
import proofs.«106748_j44272522887405_2_alg».proof.Proof.Gen.KernelIdeal.Frame
import proofs.«106748_j44272522887405_2_alg».proof.Proof.Payload
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds: the weights transposed, the biases as one-row matrices -/

theorem V_v0 (c : Dev nD) : V m c main_v0 = transpose S128x10 [1, 0] (m ((c : Thread nD τ).loc main_arg1)) Facts₀.transposes_S10x128_S128x10_1_0 := by
  show StableHlo.after hostOps0 (fun b => m (c, b)) (Proc.devRef .tc main_v0) = _
  after_results
theorem V_v1 (c : Dev nD) : V m c main_v1 = transpose S10x8 [1, 0] (m ((c : Thread nD τ).loc main_arg3)) Facts₀.transposes_S8x10_S10x8_1_0 := by
  show StableHlo.after hostOps0 (fun b => m (c, b)) (Proc.devRef .tc main_v1) = _
  after_results
theorem V_v2 (c : Dev nD) : V m c main_v2 = transpose S8x1 [1, 0] (m ((c : Thread nD τ).loc main_arg5)) Facts₀.transposes_S1x8_S8x1_1_0 := by
  show StableHlo.after hostOps0 (fun b => m (c, b)) (Proc.devRef .tc main_v2) = _
  after_results
theorem V_v3 (c : Dev nD) : V m c main_v3 = shapeCast S1x10 (m ((c : Thread nD τ).loc main_arg2)) Facts₀.shapeCasts_S10_S1x10 := by
  show StableHlo.after hostOps0 (fun b => m (c, b)) (Proc.devRef .tc main_v3) = _
  after_results
  rfl
theorem V_v4 (c : Dev nD) : V m c main_v4 = shapeCast S1x8 (m ((c : Thread nD τ).loc main_arg4)) Facts₀.shapeCasts_S8_S1x8 := by
  show StableHlo.after hostOps0 (fun b => m (c, b)) (Proc.devRef .tc main_v4) = _
  after_results
  rfl
theorem V_v5 (c : Dev nD) : V m c main_v5 = shapeCast S1x1 (m ((c : Thread nD τ).loc main_arg6)) Facts₀.shapeCasts_S1_S1x1 := by
  show StableHlo.after hostOps0 (fun b => m (c, b)) (Proc.devRef .tc main_v5) = _
  after_results
  rfl

/-! ## Where each window's block sits -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `ρ'` of the block of rows at point `t` is row `16384·t + ρ'` of the batch. -/
theorem rows_read (c : Dev nD) (t : Fin cfg0.N) (ρ' : Fin 16384) (k : Fin 128) (r : Fin 1048576) (hr : r.val = 16384 * t.val + ρ'.val) :
    iblk m c 0 t (ix2 ρ' k) = m ((c : Thread nD τ).loc main_arg0) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 16384 + 1 * ρ'.val = r.val; omega
  | ⟨1, _⟩ => show win0_0.index t (1 : Fin 2) * 128 + 1 * k.val = k.val; omega

theorem w1_read (c : Dev nD) (t : Fin cfg0.N) (k : Fin 128) (j : Fin 10) :
    iblk m c 1 t (ix2 k j) = m ((c : Thread nD τ).loc main_arg1) (ix2 j k) := by
  obtain ⟨-, -, e0, e1, -⟩ := idx_facts t
  have hemb : ((cfg0.win 1).blk t).view.emb (ix2 k j) = ix2 k j := funext fun a => Fin.ext (by
    match a with
    | ⟨0, _⟩ => show win0_1.index t (0 : Fin 2) * 128 + 1 * k.val = k.val; omega
    | ⟨1, _⟩ => show win0_1.index t (1 : Fin 2) * 10 + 1 * j.val = j.val; omega)
  unfold iblk
  rw [View.read_apply, hemb]
  show V m c main_v0 _ = _
  rw [V_v0]
  exact transpose_ix2_apply _ _ k j

theorem b1_read (c : Dev nD) (t : Fin cfg0.N) (j : Fin 10) :
    iblk m c 2 t (ix2 (0 : Fin 1) j) = m ((c : Thread nD τ).loc main_arg2) (ix1 j) := by
  obtain ⟨-, -, -, -, e0, e1, -⟩ := idx_facts t
  have hemb : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 10 + 1 * j.val = j.val; omega)
  unfold iblk
  rw [View.read_apply, hemb]
  show V m c main_v3 _ = _
  rw [V_v3]
  exact shapeCast_a_1a_apply _ _ (0 : Fin 1) j

theorem w2_read (c : Dev nD) (t : Fin cfg0.N) (k : Fin 10) (j : Fin 8) :
    iblk m c 3 t (ix2 k j) = m ((c : Thread nD τ).loc main_arg3) (ix2 j k) := by
  obtain ⟨-, -, -, -, -, -, e0, e1, -⟩ := idx_facts t
  have hemb : ((cfg0.win 3).blk t).view.emb (ix2 k j) = ix2 k j := funext fun a => Fin.ext (by
    match a with
    | ⟨0, _⟩ => show win0_3.index t (0 : Fin 2) * 10 + 1 * k.val = k.val; omega
    | ⟨1, _⟩ => show win0_3.index t (1 : Fin 2) * 8 + 1 * j.val = j.val; omega)
  unfold iblk
  rw [View.read_apply, hemb]
  show V m c main_v1 _ = _
  rw [V_v1]
  exact transpose_ix2_apply _ _ k j

theorem b2_read (c : Dev nD) (t : Fin cfg0.N) (j : Fin 8) :
    iblk m c 4 t (ix2 (0 : Fin 1) j) = m ((c : Thread nD τ).loc main_arg4) (ix1 j) := by
  obtain ⟨-, -, -, -, -, -, -, -, e0, e1, -⟩ := idx_facts t
  have hemb : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 8 + 1 * j.val = j.val; omega)
  unfold iblk
  rw [View.read_apply, hemb]
  show V m c main_v4 _ = _
  rw [V_v4]
  exact shapeCast_a_1a_apply _ _ (0 : Fin 1) j

theorem w3_read (c : Dev nD) (t : Fin cfg0.N) (k : Fin 8) :
    iblk m c 5 t (ix2 k (0 : Fin 1)) = m ((c : Thread nD τ).loc main_arg5) (ix2 (0 : Fin 1) k) := by
  obtain ⟨-, -, -, -, -, -, -, -, -, -, e0, e1, -⟩ := idx_facts t
  have hemb : ((cfg0.win 5).blk t).view.emb (ix2 k (0 : Fin 1)) = ix2 k (0 : Fin 1) := funext fun a => Fin.ext (by
    match a with
    | ⟨0, _⟩ => show win0_5.index t (0 : Fin 2) * 8 + 1 * k.val = k.val; omega
    | ⟨1, _⟩ => show win0_5.index t (1 : Fin 2) * 1 + 1 * 0 = 0; omega)
  unfold iblk
  rw [View.read_apply, hemb]
  show V m c main_v2 _ = _
  rw [V_v2]
  exact transpose_ix2_apply _ _ k (0 : Fin 1)

theorem b3_read (c : Dev nD) (t : Fin cfg0.N) :
    iblk m c 6 t (ix2 (0 : Fin 1) (0 : Fin 1)) = m ((c : Thread nD τ).loc main_arg6) (ix1 (0 : Fin 1)) := by
  obtain ⟨-, -, -, -, -, -, -, -, -, -, -, -, e0, e1, -⟩ := idx_facts t
  have hemb : ((cfg0.win 6).blk t).view.emb (ix2 (0 : Fin 1) (0 : Fin 1)) = ix2 (0 : Fin 1) (0 : Fin 1) := funext fun a => Fin.ext (by
    match a with
    | ⟨0, _⟩ => show win0_6.index t (0 : Fin 2) * 1 + 1 * 0 = 0; omega
    | ⟨1, _⟩ => show win0_6.index t (1 : Fin 2) * 1 + 1 * 0 = 0; omega)
  unfold iblk
  rw [View.read_apply, hemb]
  show V m c main_v5 _ = _
  rw [V_v5]
  exact shapeCast_a_1a_apply _ _ (0 : Fin 1) (0 : Fin 1)

/-! ## The region's result array -/

/-- The [8192, 128] array the region writes: entry `(a, b)` is the network's output for row `128·a + b`. -/
def slab (X : (⟨2, ![1048576, 128]⟩ : Shape).Idx → EReal) (W1 : (⟨2, ![10, 128]⟩ : Shape).Idx → EReal)
    (b1 : (⟨1, ![10]⟩ : Shape).Idx → EReal) (W2 : (⟨2, ![8, 10]⟩ : Shape).Idx → EReal)
    (b2 : (⟨1, ![8]⟩ : Shape).Idx → EReal) (W3 : (⟨2, ![1, 8]⟩ : Shape).Idx → EReal)
    (b3 : (⟨1, ![1]⟩ : Shape).Idx → EReal) : (⟨2, ![8192, 128]⟩ : Shape).Idx → EReal :=
  fun i => outRow X W1 b1 W2 b2 W3 b3 ⟨128 * (i 0).val + (i 1).val, by
    have h0 : (i 0).val < 8192 := (i 0).isLt
    have h1 : (i 1).val < 128 := (i 1).isLt
    omega⟩

theorem slab_ix2 (X : (⟨2, ![1048576, 128]⟩ : Shape).Idx → EReal) (W1 : (⟨2, ![10, 128]⟩ : Shape).Idx → EReal)
    (b1 : (⟨1, ![10]⟩ : Shape).Idx → EReal) (W2 : (⟨2, ![8, 10]⟩ : Shape).Idx → EReal)
    (b2 : (⟨1, ![8]⟩ : Shape).Idx → EReal) (W3 : (⟨2, ![1, 8]⟩ : Shape).Idx → EReal)
    (b3 : (⟨1, ![1]⟩ : Shape).Idx → EReal) (a : Fin 8192) (b : Fin 128) (r : Fin 1048576) (hr : r.val = 128 * a.val + b.val) :
    slab X W1 b1 W2 b2 W3 b3 (ix2 a b) = outRow X W1 b1 W2 b2 W3 b3 r :=
  congrArg (outRow X W1 b1 W2 b2 W3 b3) (Fin.ext hr.symm)

/-- The arguments' contents at launch, as the seven arrays the network is read off. -/
abbrev slabOf (c : Dev nD) : (⟨2, ![8192, 128]⟩ : Shape).Idx → EReal :=
  slab (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of the slab. -/
theorem flushed_eq (c : Dev nD) (t : Fin cfg0.N) :
    (dats m 0 c).flushed 7 t = ((cfg0.win 7).blk t).view.read (Elt Ideal) (slabOf m c) := by
  show (cfg0.win 7).cut (grid0.coords t) ((dats m 0 c).after 7 t) = _
  rw [after0_7]
  unfold out0_7
  rw [View.canon_unit_zero hz]
  simp only [View.ld_unit_zero (S := S16384x128) hz, View.ld_unit_zero (S := S128x10) hz, View.ld_unit_zero (S := S1x10) hz,
    View.ld_unit_zero (S := S10x8) hz, View.ld_unit_zero (S := S1x8) hz, View.ld_unit_zero (S := S8x1) hz, View.ld_unit_zero (S := S1x1) hz]
  obtain ⟨-, -, -, -, -, -, -, -, -, -, -, -, -, -, e0, e1⟩ := idx_facts t
  have hN : cfg0.N = 64 := N_0
  have ht : t.val < 64 := hN ▸ t.isLt
  funext j
  obtain ⟨p, q, rfl⟩ : ∃ (p q : Fin 128), j = ix2 p q := ⟨j 0, j 1, eq_ix2 j⟩
  have hemb : ((cfg0.win 7).blk t).view.emb (ix2 p q) = ix2 (⟨128 * t.val + p.val, by omega⟩ : Fin 8192) q := funext fun a => Fin.ext (by
    match a with
    | ⟨0, _⟩ => show win0_7.index t (0 : Fin 2) * 128 + 1 * p.val = 128 * t.val + p.val; omega
    | ⟨1, _⟩ => show win0_7.index t (1 : Fin 2) * 128 + 1 * q.val = q.val; omega)
  rw [View.read_apply, hemb]
  show k0_pay1 (F := Ideal) (iblk m c 0 t) (iblk m c 1 t) (iblk m c 2 t) (iblk m c 3 t) (iblk m c 4 t) (iblk m c 5 t) (iblk m c 6 t) (ix2 p q)
    = slab (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 (⟨128 * t.val + p.val, by omega⟩ : Fin 8192) q)
  refine ((pay_apply _ _ _ _ _ _ _ p q).trans (net_congr ?_ ?_ ?_ ?_ ?_ ?_ ?_)).trans
    (slab_ix2 _ _ _ _ _ _ _ _ _ (⟨16384 * t.val + (128 * p.val + q.val), by omega⟩ : Fin 1048576)
      (by show 16384 * t.val + (128 * p.val + q.val) = 128 * (128 * t.val + p.val) + q.val; omega)).symm
  · intro k; exact rows_read m c t _ k _ rfl
  · intro k j; exact w1_read m c t k j
  · intro j; exact b1_read m c t j
  · intro k j; exact w2_read m c t k j
  · intro j; exact b2_read m c t j
  · intro k; exact w3_read m c t k
  · exact b3_read m c t

/-- An index of the array is in point `t`'s block iff each coordinate is in the block's range on its axis. -/
theorem mem_blk (t : Fin cfg0.N) (i : S8192x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v6).slice (win0_7.rect t)).set ↔ _
  rw [View.set_slice_whole, Rect.mem_set_unit]
  exact Iff.rfl

/-- Every index of the array is in the block of the point numbered by its row divided by 128. -/
theorem cover (i : S8192x128.Idx) : ∃ t : Fin cfg0.N, (cfg0.win 7).flush t = true ∧ i ∈ ((cfg0.win 7).blk t).view.set := by
  have h0 : (i 0).val < 8192 := (i 0).isLt
  have h1 : (i 1).val < 128 := (i 1).isLt
  have hN : cfg0.N = 64 := N_0
  have hlt : (i 0).val / 128 < cfg0.N := by omega
  obtain ⟨-, -, -, -, -, -, -, -, -, -, -, -, -, -, e0, e1⟩ := idx_facts ⟨(i 0).val / 128, hlt⟩
  refine ⟨⟨(i 0).val / 128, hlt⟩, flush0_7 _, ?_⟩
  rw [mem_blk]
  intro a
  match a with
  | ⟨0, _⟩ =>
    show win0_7.index ⟨(i 0).val / 128, hlt⟩ (0 : Fin 2) * 128 ≤ (i 0).val ∧ (i 0).val < win0_7.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_7.index ⟨(i 0).val / 128, hlt⟩ (1 : Fin 2) * 128 ≤ (i 1).val ∧ (i 1).val < win0_7.index ⟨(i 0).val / 128, hlt⟩ (1 : Fin 2) * 128 + 128
    rw [e1]
    omega

/-- The region's result array after the run is the slab. -/
theorem final (c : Dev nD) : (dats m 0 c).arrAt 7 cfg0.N = slabOf m c :=
  (dats m 0 c).arrAt_eq_of_cover 7 (slabOf m c) (fun t _ => flushed_eq m c t) cover

/-- The lines after the region: the result is the region's array viewed as a column. -/
theorem tail_eq (c : Dev nD) : Pipeline.afterTail₀ cfgs (dats m) 0 (V0 m) [hostOps1] c main_v7
    = shapeCast S1048576x1 (slabOf m c) Facts₀.shapeCasts_S8192x128_S1048576x1 := by
  have e : Pipeline.withArrays (cfgs 0).spec c (V0 m c) (fun w => (dats m 0 c).arrAt w (cfgs 0).N) (Proc.devRef .tc main_v6) = slabOf m c :=
    (Pipeline.withArrays_arr spec0 launch0.win.arr_inj c _ _ 7).trans (final m c)
  unfold Pipeline.afterTail₀
  show StableHlo.after hostOps1 _ (Proc.devRef .tc main_v7) = _
  after_results
  rw [e]
  rfl

/-- The slab viewed as a column is the column of the network's outputs: row `r` sits at `(r / 128, r % 128)`. -/
theorem column_eq (X : (⟨2, ![1048576, 128]⟩ : Shape).Idx → EReal) (W1 : (⟨2, ![10, 128]⟩ : Shape).Idx → EReal)
    (b1 : (⟨1, ![10]⟩ : Shape).Idx → EReal) (W2 : (⟨2, ![8, 10]⟩ : Shape).Idx → EReal)
    (b2 : (⟨1, ![8]⟩ : Shape).Idx → EReal) (W3 : (⟨2, ![1, 8]⟩ : Shape).Idx → EReal)
    (b3 : (⟨1, ![1]⟩ : Shape).Idx → EReal) :
    shapeCast S1048576x1 (slab X W1 b1 W2 b2 W3 b3) Facts₀.shapeCasts_S8192x128_S1048576x1 = result X W1 b1 W2 b2 W3 b3 := by
  funext i
  obtain ⟨r, u, rfl⟩ : ∃ (r : Fin 1048576) (u : Fin 1), i = ix2 r u := ⟨i 0, i 1, eq_ix2 i⟩
  have hr : r.val < 1048576 := r.isLt
  have hu : u.val = 0 := by omega
  refine (shapeCast_apply _ _ (ix2 r u) (ix2 (⟨r.val / 128, by omega⟩ : Fin 8192) (⟨r.val % 128, by omega⟩ : Fin 128)) ?_).trans
    ((slab_ix2 _ _ _ _ _ _ _ _ _ r (by show r.val = 128 * (r.val / 128) + r.val % 128; omega)).trans
      (Cert.Mlp.result_apply _ _ _ _ _ _ _ r u).symm)
  rw [Shape.rowMajor_val_two, Shape.rowMajor_val_two]
  show r.val / 128 * 128 + r.val % 128 = r.val * 1 + u.val
  omega

/-- The run, read: the result at the column of the network's outputs, the arguments unchanged. -/
theorem run : θ_run defs (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v7 (Pipeline.mem_restRefs_of main_v7 (by decide) (by decide))).trans ((tail_eq m c).trans (column_eq _ _ _ _ _ _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand
end
-- ==== Proof.RefValue.lean ====
/-
  The reference's result, read at one row.

  The reference applies the three layers to the whole batch at once: each layer a `dot_general` of the activations
  with the transposed weight matrix, the bias broadcast along the rows, a maximum with zero after the first two and
  `1 / (1 + exp (-x))` after the last. Read at row `r`, every stage depends on row `r` of the stage before only, and the
  last quotient is the logistic function as the ideal instance defines it (the float word `0x3F800000` is the number one);
  so the result's entry `(r, 0)` is `Cert.Mlp.outRow` at `r`.
-/
import proofs.«106748_j44272522887405_2_alg».proof.Proof.Gen.ReferenceIdeal.Read
import proofs.«106748_j44272522887405_2_alg».proof.Proof.Spec
import Idealize.ShloMosaic.Lib.IdealHost

noncomputable section

open scoped BigOperators

namespace Cert.ReferenceIdeal.Hand

open Cert.ReferenceIdeal Cert.ReferenceIdeal.Read Idealize.ShloMosaic Idealize.ShloMosaic.ValueIdx
open Cert.Mlp

variable [Facts]

/-! ## The composed index maps of the stages, on indices given by coordinates -/

theorem lidx1_eq (r : Fin 1048576) (j : Fin 10) (k : Fin 128) : lidx_main_v1 (ix2 r j) k = ix2 r k :=
  funext fun a => Fin.ext (by match a with | ⟨0, _⟩ => rfl | ⟨1, _⟩ => rfl)
theorem ridx1_eq (r : Fin 1048576) (j : Fin 10) (k : Fin 128) : idx_main_v0 (ridx_main_v1 (ix2 r j) k) = ix2 j k :=
  funext fun a => Fin.ext (by match a with | ⟨0, _⟩ => rfl | ⟨1, _⟩ => rfl)
theorem bias1_eq (r : Fin 1048576) (j : Fin 10) : idx_main_v2 (idx_main_v3 (ix2 r j)) = ix1 j :=
  funext fun a => Fin.ext (by match a with | ⟨0, _⟩ => rfl)

theorem lidx7_eq (r : Fin 1048576) (j : Fin 8) (k : Fin 10) : lidx_main_v7 (ix2 r j) k = ix2 r k :=
  funext fun a => Fin.ext (by match a with | ⟨0, _⟩ => rfl | ⟨1, _⟩ => rfl)
theorem ridx7_eq (r : Fin 1048576) (j : Fin 8) (k : Fin 10) : idx_main_v6 (ridx_main_v7 (ix2 r j) k) = ix2 j k :=
  funext fun a => Fin.ext (by match a with | ⟨0, _⟩ => rfl | ⟨1, _⟩ => rfl)
theorem bias2_eq (r : Fin 1048576) (j : Fin 8) : idx_main_v8 (idx_main_v9 (ix2 r j)) = ix1 j :=
  funext fun a => Fin.ext (by match a with | ⟨0, _⟩ => rfl)

theorem lidx13_eq (r : Fin 1048576) (k : Fin 8) : lidx_main_v13 (ix2 r (0 : Fin 1)) k = ix2 r k :=
  funext fun a => Fin.ext (by match a with | ⟨0, _⟩ => rfl | ⟨1, _⟩ => rfl)
theorem ridx13_eq (r : Fin 1048576) (k : Fin 8) : idx_main_v12 (ridx_main_v13 (ix2 r (0 : Fin 1)) k) = ix2 (0 : Fin 1) k :=
  funext fun a => Fin.ext (by match a with | ⟨0, _⟩ => rfl | ⟨1, _⟩ => rfl)
theorem bias3_eq (r : Fin 1048576) : idx_main_v14 (idx_main_v15 (ix2 r (0 : Fin 1))) = ix1 (0 : Fin 1) :=
  funext fun a => Fin.ext (by match a with | ⟨0, _⟩ => rfl)

/-! ## The three stages at a row -/

/-- The first activation at `(r, j)`. -/
theorem hidden1_apply (x0 : (⟨S1048576x128, .f32⟩ : BufTy).Contents (Elt Ideal)) (x1 : (⟨S10x128, .f32⟩ : BufTy).Contents (Elt Ideal))
    (x2 : (⟨S10, .f32⟩ : BufTy).Contents (Elt Ideal)) (r : Fin 1048576) (j : Fin 10) :
    val_main_v5 (F := Ideal) x0 x1 x2 (ix2 r j)
      = layer1 (fun k => x0 (ix2 r k)) (fun k j => x1 (ix2 j k)) (fun j => x2 (ix1 j)) j := by
  rw [val_main_v5_apply, val_main_v4_apply, val_main_v1_apply, val_main_v3_apply, val_main_v2_apply, val_main_call0_v0_apply,
    val_main_call0_cst_apply, bias1_eq]
  unfold layer1
  show max ((∑ k : Fin 128, _) + _) _ = _
  refine congrArg (fun s => max (s + x2 (ix1 j)) zeroWord) (Finset.sum_congr rfl fun k _ => ?_)
  rw [val_main_v0_apply, lidx1_eq, ridx1_eq]

/-- The second activation at `(r, j)`. -/
theorem hidden2_apply (x0 : (⟨S1048576x128, .f32⟩ : BufTy).Contents (Elt Ideal)) (x1 : (⟨S10x128, .f32⟩ : BufTy).Contents (Elt Ideal))
    (x2 : (⟨S10, .f32⟩ : BufTy).Contents (Elt Ideal)) (x3 : (⟨S8x10, .f32⟩ : BufTy).Contents (Elt Ideal))
    (x4 : (⟨S8, .f32⟩ : BufTy).Contents (Elt Ideal)) (r : Fin 1048576) (j : Fin 8) :
    val_main_v11 (F := Ideal) x0 x1 x2 x3 x4 (ix2 r j)
      = layer2 (layer1 (fun k => x0 (ix2 r k)) (fun k j => x1 (ix2 j k)) (fun j => x2 (ix1 j))) (fun k j => x3 (ix2 j k)) (fun j => x4 (ix1 j)) j := by
  rw [val_main_v11_apply, val_main_v10_apply, val_main_v7_apply, val_main_v9_apply, val_main_v8_apply, val_main_call1_v0_apply,
    val_main_call1_cst_apply, bias2_eq]
  unfold layer2
  show max ((∑ k : Fin 10, _) + _) _ = _
  refine congrArg (fun s => max (s + x4 (ix1 j)) zeroWord) (Finset.sum_congr rfl fun k _ => ?_)
  rw [val_main_v6_apply, lidx7_eq, ridx7_eq, hidden1_apply]

/-- The result at `(r, 0)` is the network's output for row `r`. -/
theorem row_apply (x0 : (⟨S1048576x128, .f32⟩ : BufTy).Contents (Elt Ideal)) (x1 : (⟨S10x128, .f32⟩ : BufTy).Contents (Elt Ideal))
    (x2 : (⟨S10, .f32⟩ : BufTy).Contents (Elt Ideal)) (x3 : (⟨S8x10, .f32⟩ : BufTy).Contents (Elt Ideal))
    (x4 : (⟨S8, .f32⟩ : BufTy).Contents (Elt Ideal)) (x5 : (⟨S1x8, .f32⟩ : BufTy).Contents (Elt Ideal))
    (x6 : (⟨S1, .f32⟩ : BufTy).Contents (Elt Ideal)) (r : Fin 1048576) :
    val_main_v22 (F := Ideal) x0 x1 x2 x3 x4 x5 x6 (ix2 r (0 : Fin 1)) = outRow x0 x1 x2 x3 x4 x5 x6 r := by
  rw [val_main_v22_apply, val_main_v21_apply, val_main_cst_0_apply, val_main_v20_apply, val_main_v19_apply, val_main_cst_apply,
    val_main_v18_apply, val_main_v17_apply, val_main_v16_apply, val_main_v13_apply, val_main_v15_apply, val_main_v14_apply, bias3_eq]
  unfold outRow net layer3 Ideal.logistic
  show Ideal.div (Ideal.ofBits .f32 0x3F800000#32) (Ideal.ofBits .f32 0x3F800000#32 + Ideal.exp (-((∑ k : Fin 8, _) + _))) = _
  rw [Ideal.ofBits_one_f32]
  refine congrArg (fun s => Ideal.div 1 (1 + Ideal.exp (-(s + x6 (ix1 (0 : Fin 1)))))) (Finset.sum_congr rfl fun k _ => ?_)
  rw [val_main_v12_apply, lidx13_eq, ridx13_eq, hidden2_apply]

/-- The reference's whole result is the column of the network's outputs. -/
theorem result_eq (x0 : (⟨S1048576x128, .f32⟩ : BufTy).Contents (Elt Ideal)) (x1 : (⟨S10x128, .f32⟩ : BufTy).Contents (Elt Ideal))
    (x2 : (⟨S10, .f32⟩ : BufTy).Contents (Elt Ideal)) (x3 : (⟨S8x10, .f32⟩ : BufTy).Contents (Elt Ideal))
    (x4 : (⟨S8, .f32⟩ : BufTy).Contents (Elt Ideal)) (x5 : (⟨S1x8, .f32⟩ : BufTy).Contents (Elt Ideal))
    (x6 : (⟨S1, .f32⟩ : BufTy).Contents (Elt Ideal)) :
    val_main_v22 (F := Ideal) x0 x1 x2 x3 x4 x5 x6 = result x0 x1 x2 x3 x4 x5 x6 := by
  funext i
  obtain ⟨r, u, rfl⟩ : ∃ (r : Fin 1048576) (u : Fin 1), i = ix2 r u := ⟨i 0, i 1, eq_ix2 i⟩
  obtain rfl : u = 0 := Subsingleton.elim _ _
  exact (row_apply x0 x1 x2 x3 x4 x5 x6 r).trans (Cert.Mlp.result_apply x0 x1 x2 x3 x4 x5 x6 r 0).symm

end Cert.ReferenceIdeal.Hand

end
-- ==== Proof.lean ====
/-
  A three-layer perceptron with a logistic output, batched over 1048576 rows: the kernel against its jnp reference.

  Both programs compute, for each row `r` of the batch, `Cert.Mlp.outRow` (Proof/Spec.lean): two affine layers each
  followed by a maximum with zero, a third affine layer, the logistic function. The kernel does it for 16384 rows per
  grid point with matrix products into zero accumulators and writes the outputs as a [128, 128] slab that the
  program views back as a column; the reference does it for the whole batch with `dot_general`s and spells the
  logistic function as `1 / (1 + exp (-x))`. At the ideal instance a matrix product and a `dot_general` are the same
  sums, the logistic function IS that quotient, and the word `0x3F800000` is the number one; no law of the
  extended reals beyond these identities is used, so the precondition is never opened.

  Proof/Payload.lean reads the kernel body's stored value at an entry, Proof/KernelValue.lean the kernel's run
  (the blocks tile the result array; the final reshape), Proof/RefValue.lean the reference's result at a row.
  The three frames: the kernel's two are the generated frame certificates, the reference's is its generated run
  with the result dropped. The idealization rewrote nothing, so `preserves` has nothing to state.
-/
import proofs.«106748_j44272522887405_2_alg».proof.Defs
import proofs.«106748_j44272522887405_2_alg».proof.Proof.Gen.Kernel
import proofs.«106748_j44272522887405_2_alg».proof.Proof.Gen.Kernel.Skeleton
import proofs.«106748_j44272522887405_2_alg».proof.Proof.Gen.Kernel.Launch
import proofs.«106748_j44272522887405_2_alg».proof.Proof.Gen.Kernel.Points
import proofs.«106748_j44272522887405_2_alg».proof.Proof.Gen.Kernel.Frame
import proofs.«106748_j44272522887405_2_alg».proof.Proof.Gen.KernelIdeal
import proofs.«106748_j44272522887405_2_alg».proof.Proof.Gen.KernelIdeal.Skeleton
import proofs.«106748_j44272522887405_2_alg».proof.Proof.Gen.KernelIdeal.Launch
import proofs.«106748_j44272522887405_2_alg».proof.Proof.Gen.KernelIdeal.Points
import proofs.«106748_j44272522887405_2_alg».proof.Proof.Gen.KernelIdeal.Frame
import proofs.«106748_j44272522887405_2_alg».proof.Proof.Gen.ReferenceIdeal
import proofs.«106748_j44272522887405_2_alg».proof.Proof.Gen.Pre_finite_inputs
import proofs.«106748_j44272522887405_2_alg».proof.Proof.Gen.ReferenceIdeal.Run
import proofs.«106748_j44272522887405_2_alg».proof.Proof.Gen.ReferenceIdeal.Read
import proofs.«106748_j44272522887405_2_alg».proof.Proof.KernelValue
import proofs.«106748_j44272522887405_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the column of the network's outputs. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Hand.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
